-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S256x128 : Shape := ⟨2, ![256, 128]⟩
abbrev S256x1 : Shape := ⟨2, ![256, 1]⟩
abbrev S256x8192 : Shape := ⟨2, ![256, 8192]⟩
abbrev S256 : Shape := ⟨1, ![256]⟩

abbrev nBuf : Space → Nat
  | .hbm => 20
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .bf16⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S256x1, .f32⟩
  | .local _ .vmem, ⟨7, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  iota_S256x8192_d0_w32 : S256x8192.Iotas .tc 32 [0]
  iota_S256x8192_d1_w32 : S256x8192.Iotas .tc 32 [1]
  reduces_S256x8192_S256 : S256x8192.Reduces [1] S256
  shapeCasts_S256_S256x1 : S256.ShapeCasts S256x1
  reducesTo_S8192x1_S_d0_1 : S8192x1.ReducesTo [0, 1] S_
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .bf16 = 32 ∨ (Rect.block (s := S8192x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_v5) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x8192, .f32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.BitsBody.lean ====
/-
  The loss kernel's body at one grid point, and the proof data of its pipeline, for any reading of the floats.

  A grid point `t` stages five blocks: 256 rows of the normalised embeddings (window 0), ALL 8192 rows of the same
  array (window 1), the 256 labels of those rows as a column (window 2), all 8192 labels as a row (window 3), and
  the 256 losses it writes back (window 4). The body reads the four input blocks whole, computes one column of 256
  numbers from them and the point's coordinate (`Gen.k0_pay1`), and stores it over the whole output block; it
  keeps nothing between points. So after the body each input buffer holds its block still and the output buffer
  holds that column (`lossBlock`).

  Windows 0 and 1 read ONE array. The pipeline is therefore given that array at half its share through each of
  the two windows (`dat`'s `q`); both windows only read.
-/
import proofs.«131903_j28690381537554_2_alg».proof.Proof.Gen.Kernel.Launch
import proofs.«131903_j28690381537554_2_alg».proof.Proof.Gen.Kernel.Skeleton
import proofs.«131903_j28690381537554_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds the window's block at every point, whether the point fetches it or not (a point
    that does not fetch has the same block index as the point before, and the body left the block in place). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rRows : Rect S256x128 := Rect.unit (s := S256x128) ![0, 0] S256x128.size inb_S256x128_S256x128_0_0
abbrev rAll : Rect S8192x128 := Rect.unit (s := S8192x128) ![0, 0] S8192x128.size inb_S8192x128_S8192x128_0_0
abbrev rCol : Rect S256x1 := Rect.unit (s := S256x1) ![0, 0] S256x1.size inb_S256x1_S256x1_0_0
abbrev rRow : Rect S1x8192 := Rect.unit (s := S1x8192) ![0, 0] S1x8192.size inb_S1x8192_S1x8192_0_0

/-- The output buffer after the body: its one store, of the column computed from the four input blocks. -/
def lossBlock (i : grid0.Coords) (x0 : Vec F S256x128 .bf16) (x1 : Vec F S8192x128 .bf16) (x2 : Vec F S256x1 .i32) (x3 : Vec F S1x8192 .i32) :
    Vec F S256x1 .f32 :=
  View.canon [⟨rCol, k0_pay1 i (View.ld x0 rRows) (View.ld x1 rAll) (View.ld x2 rCol) (View.ld x3 rRow)⟩]

/-- The one store covers the output buffer. -/
theorem cover_loss (p0 : Vec F S256x1 .f32) (y : S256x1.Idx) :
    ∃ pc ∈ ([⟨rCol, p0⟩] : List (View.Piece (Elt F) S256x1 .f32)), y ∈ pc.1.set :=
  View.cover_of_tiled [⟨rCol, p0⟩] S256x1.size (by rfl) y

/-! ## The body's triple -/

set_option maxHeartbeats 1000000 in
/-- On whole staging buffers, the inputs' at contents `x0 … x3` and the output's at anything, the body runs to its
    end, nothing faulting, leaving the inputs' as they were and the output's at `lossBlock`. -/
theorem sound_kernel (c : Dev nD) (E : Set ℕ) (i : grid0.Coords)
    (arg1 : Memref sig .tc .vmem S256x128 .bf16) (harg1 : arg1.IsWhole) (arg2 : Memref sig .tc .vmem S8192x128 .bf16) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x1 .f32) (harg5 : arg5.IsWhole)
    (x0 : Vec F S256x128 .bf16) (x1 : Vec F S8192x128 .bf16) (x2 : Vec F S256x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (lossBlock i x0 x1 x2 x3)) -∗ K ⟨⟩))
      ⊢ wp frame (wpE (defs₀ (F := F)) Variants.none c none) E (cc0__nt_xent_kernel i arg1 harg1 arg2 harg2 arg3 harg3 arg4 harg4 arg5 harg5) K := by
  simp only [cc0__nt_xent_kernel_eq_skeleton]; unfold cc0__nt_xent_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_loss _)

/-! ## The pipeline's proof data -/

/-- The arrays as the region finds them; after the body each input buffer at its block and the output buffer at
    `lossBlock` of the blocks; the embeddings' array at half its share through each of its two windows; nothing
    carried between points and nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => lossBlock (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) :
    (dat V c).after 4 t = lossBlock (grid0.coords t) (iblk V c 0 t) (iblk V c 1 t) (iblk V c 2 t) (iblk V c 3 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's obligation on the body, at every point. -/
theorem body_obligation (c : Dev nD) : BodyObligation (dat (F := F) V c) (defs₀ (F := F)) Variants.none () Set.univ := fun t => by
  rw [bigSep_W0, bigSep_W0]
  exact sound_body V c t

end Cert.Kernel.Body

end
-- ==== Proof.BitsRun.lean ====
/-
  The whole program run, for any reading of the floats: host lines, the loss kernel's region, host lines.

  @main first computes on the host the row norms of the embeddings, clamps them from below, divides each row by its
  clamped norm (the normalised embeddings), and lays the labels out as a column and as a row; then the region runs
  the kernel over its 32 grid points; then the host sums the 8192 losses and divides by 8192.

  The buffers' contents are followed from the launch to the return as a fold over these four stretches (`W0 … W4`):
  a host stretch rewrites the buffers its lines write, and the region leaves every buffer as it found it except
  the losses' array, which holds what the 32 write-backs left. The normalised embeddings reach the kernel through
  TWO windows (the row tile and the whole array), so at the region's entry that one buffer's full share is dealt
  in halves to the two windows and at the exit the halves, both still at the entry contents, are put together
  again; the other three arrays go in and come out whole.

  The run's statement (`run`): every weakly fair execution terminates, nothing faulting, with the result buffer at
  `W4`'s value there and both argument arrays as launched.
-/
import proofs.«131903_j28690381537554_2_alg».proof.Proof.BitsBody

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's arrays in and out of the core's unscoped buffers, one array shared by two windows -/

section Arrays

variable (V : (c : Dev nD) → (b : Ref sig .tc) → Buf (Elt F) ((c : Thread nD τ).loc b))

/-- The pipeline's arrays, window by window: the embeddings' buffer at its left half for the row tile and at its
    right half for the whole-array window, the two label layouts and the losses at the full share. -/
theorem arrays_eq (c : Dev nD) (G : (w : Fin cfg0.W) → Buf (Elt F) ((cfg0.win w).arr.view.loc (c.tc : Thread nD τ))) :
    ((dat V c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2) ∗ (((c : Thread nD τ).loc main_v7) ↦{fullShare} G 3)
          ∗ (((c : Thread nD τ).loc main_v8) ↦{fullShare} G 4)) := by
  have h : ((dat V c).arrays G : sProp 𝕄)
      = bigSep Finset.univ fun w : Fin cfg0.W => (((c : Thread nD τ).loc (Pipeline.arrRef spec0 w)) ↦{(dat V c).share w} G w : sProp 𝕄) := by
    unfold Dat.arrays
    exact bigSep_congr fun w _ => by rw [(arr_whole0 w).set_eq_univ]
  rw [h, bigSep_W0]
  rfl

/-- The four distinct buffers behind the five windows. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v5) ↦{fullShare} V' main_v5) ∗ (((c : Thread nD τ).loc main_v6) ↦{fullShare} V' main_v6)
          ∗ (((c : Thread nD τ).loc main_v7) ↦{fullShare} V' main_v7) ∗ (((c : Thread nD τ).loc main_v8) ↦{fullShare} V' main_v8)) := by
  unfold Pipeline.arrBufs
  rw [bigSep_eq_bigSepL_of_eq [main_v5, main_v6, main_v7, main_v8] (by decide) (by decide)]
  rfl

/-- ENTRY: the core's unscoped buffers at `V` are the pipeline's arrays at the entry contents — the embeddings'
    buffer split in halves between its two windows — and the buffers no window stages. -/
theorem arrays_entry (c : Dev nD) :
    (unscopedBufs c (V c) : sProp 𝕄) ⊢ iprop((dat V c).arrays ((dat V c).arrAt · 0) ∗ Pipeline.unscopedRest spec0 c (V c)) := by
  rw [Pipeline.unscopedBufs_split₀ cfgs 0 winFacts₀0.arr_unscoped c (V c), arrBufs_eq, arrays_eq]
  iintro ⟨⟨H5, H6, H7, H8⟩, Hrest⟩
  ihave H5 := (pointsTo_share (PosShare.mem_left_op_right fullShare)).1 $$ H5
  icases H5 with ⟨H5l, H5r⟩
  isplitr [Hrest]
  · isplitl [H5l]; · iexact H5l
    isplitl [H5r]; · iexact H5r
    isplitl [H6]; · iexact H6
    isplitl [H7]; · iexact H7
    iexact H8
  iexact Hrest

/-- EXIT: the arrays after the last point — the inputs still at the entry contents, the losses at what the
    write-backs left — and the bypassing buffers are the core's unscoped buffers at any contents `V'` that agrees
    with `V` off the losses' array and has the write-backs' result there. -/
theorem arrays_exit (c : Dev nD) (V' : (b : Ref sig .tc) → Buf (Elt F) ((c : Thread nD τ).loc b))
    (h5 : V' main_v5 = V c main_v5) (h6 : V' main_v6 = V c main_v6) (h7 : V' main_v7 = V c main_v7)
    (h8 : V' main_v8 = (dat V c).arrAt 4 cfg0.N)
    (hrest : ∀ b, b ∉ Finset.univ.image (Pipeline.arrRef spec0) → V' b = V c b) :
    iprop((dat V c).arrays ((dat V c).arrAt · cfg0.N) ∗ Pipeline.unscopedRest spec0 c (V c)) ⊢ (unscopedBufs c V' : sProp 𝕄) := by
  rw [Pipeline.unscopedBufs_split₀ cfgs 0 winFacts₀0.arr_unscoped c V', arrBufs_eq, arrays_eq]
  have e0 : (dat V c).arrAt 0 cfg0.N = V c main_v5 := ((dat V c).arrAt_in 0 rfl _).trans (A_eq V c 0)
  have e1 : (dat V c).arrAt 1 cfg0.N = V c main_v5 := ((dat V c).arrAt_in 1 rfl _).trans (A_eq V c 1)
  have e2 : (dat V c).arrAt 2 cfg0.N = V c main_v6 := ((dat V c).arrAt_in 2 rfl _).trans (A_eq V c 2)
  have e3 : (dat V c).arrAt 3 cfg0.N = V c main_v7 := ((dat V c).arrAt_in 3 rfl _).trans (A_eq V c 3)
  rw [e0, e1, e2, e3, h5, h6, h7, h8]
  have hr : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by rw [hrest b (Finset.mem_sdiff.mp hb).2]
  rw [hr]
  iintro ⟨⟨H5l, H5r, H6, H7, H8⟩, Hrest⟩
  ihave H5 := (pointsTo_share (PosShare.mem_left_op_right fullShare)).2 $$ [H5l H5r]
  · isplitl [H5l] <;> iassumption
  isplitr [Hrest]
  · isplitl [H5]; · iexact H5
    isplitl [H6]; · iexact H6
    isplitl [H7]; · iexact H7
    iexact H8
  iexact Hrest

end Arrays

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the row norms. -/
abbrev W1 : Dev nD → Valuation τ sig (Elt F) := fun c => StableHlo.after hostOps0 (W0 m ρ c)
/-- After the normalisation and the labels' two layouts: the region's entry. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
open Classical in
/-- At the region's exit: the losses' array at what the write-backs left, every other buffer as entered. -/
def W3 (c : Dev nD) : Valuation τ sig (Elt F) :=
  Function.update (W2 m ρ c) (Proc.devRef .tc main_v8) ((dat (V2 m ρ) c).arrAt 4 cfg0.N)
theorem W3_losses (c : Dev nD) : W3 m ρ c (Proc.devRef .tc main_v8) = (dat (V2 m ρ) c).arrAt 4 cfg0.N := by
  unfold W3; exact Function.update_self ..
theorem W3_of_ne (c : Dev nD) (b : Ref sig .tc) (hb : b ≠ main_v8) : W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
/-- After the mean: the return. -/
abbrev W4 : Dev nD → Valuation τ sig (Elt F) := fun c => StableHlo.after hostOps1 (W3 m ρ c)

/-! ### No stretch writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, StableHlo.TRef.binary, StableHlo.TRef.unary, StableHlo.TRef.nullary, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps0_1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, StableHlo.TRef.binary, StableHlo.TRef.unary, StableHlo.TRef.nullary, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V2 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The region as a segment -/

theorem hrest3 (c : Dev nD) : ∀ b, b ∉ Finset.univ.image (Pipeline.arrRef spec0) → V3 m ρ c b = V2 m ρ c b := fun b hb =>
  W3_of_ne m ρ c b fun e => hb (Finset.mem_image.mpr ⟨4, Finset.mem_univ _, e.symm⟩)

set_option backward.isDefEq.respectTransparency.types false in
/-- The region over the thread state: entered from every unscoped buffer at `W2`, left at `W3`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := arrays_entry (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_exit (V2 m ρ) c (V3 m ρ c) (W3_of_ne m ρ c main_v5 (by decide)) (W3_of_ne m ρ c main_v6 (by decide))
      (W3_of_ne m ρ c main_v7 (by decide)) (W3_losses m ρ c) (hrest3 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and ends with the result buffer at the fold's value and both argument arrays as launched. -/
theorem run : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c)⟩)

end Cert.Kernel.Run

end
-- ==== Proof.IdealBody.lean ====
/-
  The loss kernel's body at one grid point, and the proof data of its pipeline, for any reading of the floats.

  A grid point `t` stages five blocks: 256 rows of the normalised embeddings (window 0), ALL 8192 rows of the same
  array (window 1), the 256 labels of those rows as a column (window 2), all 8192 labels as a row (window 3), and
  the 256 losses it writes back (window 4). The body reads the four input blocks whole, computes one column of 256
  numbers from them and the point's coordinate (`Gen.k0_pay1`), and stores it over the whole output block; it
  keeps nothing between points. So after the body each input buffer holds its block still and the output buffer
  holds that column (`lossBlock`).

  Windows 0 and 1 read ONE array. The pipeline is therefore given that array at half its share through each of
  the two windows (`dat`'s `q`); both windows only read.
-/
import proofs.«131903_j28690381537554_2_alg».proof.Proof.Gen.KernelIdeal.Launch
import proofs.«131903_j28690381537554_2_alg».proof.Proof.Gen.KernelIdeal.Skeleton
import proofs.«131903_j28690381537554_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds the window's block at every point, whether the point fetches it or not (a point
    that does not fetch has the same block index as the point before, and the body left the block in place). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rRows : Rect S256x128 := Rect.unit (s := S256x128) ![0, 0] S256x128.size inb_S256x128_S256x128_0_0
abbrev rAll : Rect S8192x128 := Rect.unit (s := S8192x128) ![0, 0] S8192x128.size inb_S8192x128_S8192x128_0_0
abbrev rCol : Rect S256x1 := Rect.unit (s := S256x1) ![0, 0] S256x1.size inb_S256x1_S256x1_0_0
abbrev rRow : Rect S1x8192 := Rect.unit (s := S1x8192) ![0, 0] S1x8192.size inb_S1x8192_S1x8192_0_0

/-- The output buffer after the body: its one store, of the column computed from the four input blocks. -/
def lossBlock (i : grid0.Coords) (x0 : Vec F S256x128 .bf16) (x1 : Vec F S8192x128 .bf16) (x2 : Vec F S256x1 .i32) (x3 : Vec F S1x8192 .i32) :
    Vec F S256x1 .f32 :=
  View.canon [⟨rCol, k0_pay1 i (View.ld x0 rRows) (View.ld x1 rAll) (View.ld x2 rCol) (View.ld x3 rRow)⟩]

/-- The one store covers the output buffer. -/
theorem cover_loss (p0 : Vec F S256x1 .f32) (y : S256x1.Idx) :
    ∃ pc ∈ ([⟨rCol, p0⟩] : List (View.Piece (Elt F) S256x1 .f32)), y ∈ pc.1.set :=
  View.cover_of_tiled [⟨rCol, p0⟩] S256x1.size (by rfl) y

/-! ## The body's triple -/

set_option maxHeartbeats 1000000 in
/-- On whole staging buffers, the inputs' at contents `x0 … x3` and the output's at anything, the body runs to its
    end, nothing faulting, leaving the inputs' as they were and the output's at `lossBlock`. -/
theorem sound_kernel (c : Dev nD) (E : Set ℕ) (i : grid0.Coords)
    (arg1 : Memref sig .tc .vmem S256x128 .bf16) (harg1 : arg1.IsWhole) (arg2 : Memref sig .tc .vmem S8192x128 .bf16) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x1 .f32) (harg5 : arg5.IsWhole)
    (x0 : Vec F S256x128 .bf16) (x1 : Vec F S8192x128 .bf16) (x2 : Vec F S256x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (lossBlock i x0 x1 x2 x3)) -∗ K ⟨⟩))
      ⊢ wp frame (wpE (defs₀ (F := F)) Variants.none c none) E (cc0__nt_xent_kernel i arg1 harg1 arg2 harg2 arg3 harg3 arg4 harg4 arg5 harg5) K := by
  simp only [cc0__nt_xent_kernel_eq_skeleton]; unfold cc0__nt_xent_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_loss _)

/-! ## The pipeline's proof data -/

/-- The arrays as the region finds them; after the body each input buffer at its block and the output buffer at
    `lossBlock` of the blocks; the embeddings' array at half its share through each of its two windows; nothing
    carried between points and nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => lossBlock (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) :
    (dat V c).after 4 t = lossBlock (grid0.coords t) (iblk V c 0 t) (iblk V c 1 t) (iblk V c 2 t) (iblk V c 3 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's obligation on the body, at every point. -/
theorem body_obligation (c : Dev nD) : BodyObligation (dat (F := F) V c) (defs₀ (F := F)) Variants.none () Set.univ := fun t => by
  rw [bigSep_W0, bigSep_W0]
  exact sound_body V c t

end Cert.KernelIdeal.Body

end
-- ==== Proof.IdealRun.lean ====
/-
  The whole program run, for any reading of the floats: host lines, the loss kernel's region, host lines.

  @main first computes on the host the row norms of the embeddings, clamps them from below, divides each row by its
  clamped norm (the normalised embeddings), and lays the labels out as a column and as a row; then the region runs
  the kernel over its 32 grid points; then the host sums the 8192 losses and divides by 8192.

  The buffers' contents are followed from the launch to the return as a fold over these four stretches (`W0 … W4`):
  a host stretch rewrites the buffers its lines write, and the region leaves every buffer as it found it except
  the losses' array, which holds what the 32 write-backs left. The normalised embeddings reach the kernel through
  TWO windows (the row tile and the whole array), so at the region's entry that one buffer's full share is dealt
  in halves to the two windows and at the exit the halves, both still at the entry contents, are put together
  again; the other three arrays go in and come out whole.

  The run's statement (`run`): every weakly fair execution terminates, nothing faulting, with the result buffer at
  `W4`'s value there and both argument arrays as launched.
-/
import proofs.«131903_j28690381537554_2_alg».proof.Proof.IdealBody

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's arrays in and out of the core's unscoped buffers, one array shared by two windows -/

section Arrays

variable (V : (c : Dev nD) → (b : Ref sig .tc) → Buf (Elt F) ((c : Thread nD τ).loc b))

/-- The pipeline's arrays, window by window: the embeddings' buffer at its left half for the row tile and at its
    right half for the whole-array window, the two label layouts and the losses at the full share. -/
theorem arrays_eq (c : Dev nD) (G : (w : Fin cfg0.W) → Buf (Elt F) ((cfg0.win w).arr.view.loc (c.tc : Thread nD τ))) :
    ((dat V c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2) ∗ (((c : Thread nD τ).loc main_v7) ↦{fullShare} G 3)
          ∗ (((c : Thread nD τ).loc main_v8) ↦{fullShare} G 4)) := by
  have h : ((dat V c).arrays G : sProp 𝕄)
      = bigSep Finset.univ fun w : Fin cfg0.W => (((c : Thread nD τ).loc (Pipeline.arrRef spec0 w)) ↦{(dat V c).share w} G w : sProp 𝕄) := by
    unfold Dat.arrays
    exact bigSep_congr fun w _ => by rw [(arr_whole0 w).set_eq_univ]
  rw [h, bigSep_W0]
  rfl

/-- The four distinct buffers behind the five windows. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v5) ↦{fullShare} V' main_v5) ∗ (((c : Thread nD τ).loc main_v6) ↦{fullShare} V' main_v6)
          ∗ (((c : Thread nD τ).loc main_v7) ↦{fullShare} V' main_v7) ∗ (((c : Thread nD τ).loc main_v8) ↦{fullShare} V' main_v8)) := by
  unfold Pipeline.arrBufs
  rw [bigSep_eq_bigSepL_of_eq [main_v5, main_v6, main_v7, main_v8] (by decide) (by decide)]
  rfl

/-- ENTRY: the core's unscoped buffers at `V` are the pipeline's arrays at the entry contents — the embeddings'
    buffer split in halves between its two windows — and the buffers no window stages. -/
theorem arrays_entry (c : Dev nD) :
    (unscopedBufs c (V c) : sProp 𝕄) ⊢ iprop((dat V c).arrays ((dat V c).arrAt · 0) ∗ Pipeline.unscopedRest spec0 c (V c)) := by
  rw [Pipeline.unscopedBufs_split₀ cfgs 0 winFacts₀0.arr_unscoped c (V c), arrBufs_eq, arrays_eq]
  iintro ⟨⟨H5, H6, H7, H8⟩, Hrest⟩
  ihave H5 := (pointsTo_share (PosShare.mem_left_op_right fullShare)).1 $$ H5
  icases H5 with ⟨H5l, H5r⟩
  isplitr [Hrest]
  · isplitl [H5l]; · iexact H5l
    isplitl [H5r]; · iexact H5r
    isplitl [H6]; · iexact H6
    isplitl [H7]; · iexact H7
    iexact H8
  iexact Hrest

/-- EXIT: the arrays after the last point — the inputs still at the entry contents, the losses at what the
    write-backs left — and the bypassing buffers are the core's unscoped buffers at any contents `V'` that agrees
    with `V` off the losses' array and has the write-backs' result there. -/
theorem arrays_exit (c : Dev nD) (V' : (b : Ref sig .tc) → Buf (Elt F) ((c : Thread nD τ).loc b))
    (h5 : V' main_v5 = V c main_v5) (h6 : V' main_v6 = V c main_v6) (h7 : V' main_v7 = V c main_v7)
    (h8 : V' main_v8 = (dat V c).arrAt 4 cfg0.N)
    (hrest : ∀ b, b ∉ Finset.univ.image (Pipeline.arrRef spec0) → V' b = V c b) :
    iprop((dat V c).arrays ((dat V c).arrAt · cfg0.N) ∗ Pipeline.unscopedRest spec0 c (V c)) ⊢ (unscopedBufs c V' : sProp 𝕄) := by
  rw [Pipeline.unscopedBufs_split₀ cfgs 0 winFacts₀0.arr_unscoped c V', arrBufs_eq, arrays_eq]
  have e0 : (dat V c).arrAt 0 cfg0.N = V c main_v5 := ((dat V c).arrAt_in 0 rfl _).trans (A_eq V c 0)
  have e1 : (dat V c).arrAt 1 cfg0.N = V c main_v5 := ((dat V c).arrAt_in 1 rfl _).trans (A_eq V c 1)
  have e2 : (dat V c).arrAt 2 cfg0.N = V c main_v6 := ((dat V c).arrAt_in 2 rfl _).trans (A_eq V c 2)
  have e3 : (dat V c).arrAt 3 cfg0.N = V c main_v7 := ((dat V c).arrAt_in 3 rfl _).trans (A_eq V c 3)
  rw [e0, e1, e2, e3, h5, h6, h7, h8]
  have hr : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by rw [hrest b (Finset.mem_sdiff.mp hb).2]
  rw [hr]
  iintro ⟨⟨H5l, H5r, H6, H7, H8⟩, Hrest⟩
  ihave H5 := (pointsTo_share (PosShare.mem_left_op_right fullShare)).2 $$ [H5l H5r]
  · isplitl [H5l] <;> iassumption
  isplitr [Hrest]
  · isplitl [H5]; · iexact H5
    isplitl [H6]; · iexact H6
    isplitl [H7]; · iexact H7
    iexact H8
  iexact Hrest

end Arrays

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the row norms. -/
abbrev W1 : Dev nD → Valuation τ sig (Elt F) := fun c => StableHlo.after hostOps0 (W0 m ρ c)
/-- After the normalisation and the labels' two layouts: the region's entry. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
open Classical in
/-- At the region's exit: the losses' array at what the write-backs left, every other buffer as entered. -/
def W3 (c : Dev nD) : Valuation τ sig (Elt F) :=
  Function.update (W2 m ρ c) (Proc.devRef .tc main_v8) ((dat (V2 m ρ) c).arrAt 4 cfg0.N)
theorem W3_losses (c : Dev nD) : W3 m ρ c (Proc.devRef .tc main_v8) = (dat (V2 m ρ) c).arrAt 4 cfg0.N := by
  unfold W3; exact Function.update_self ..
theorem W3_of_ne (c : Dev nD) (b : Ref sig .tc) (hb : b ≠ main_v8) : W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
/-- After the mean: the return. -/
abbrev W4 : Dev nD → Valuation τ sig (Elt F) := fun c => StableHlo.after hostOps1 (W3 m ρ c)

/-! ### No stretch writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, StableHlo.TRef.binary, StableHlo.TRef.unary, StableHlo.TRef.nullary, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps0_1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, StableHlo.TRef.binary, StableHlo.TRef.unary, StableHlo.TRef.nullary, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V2 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The region as a segment -/

theorem hrest3 (c : Dev nD) : ∀ b, b ∉ Finset.univ.image (Pipeline.arrRef spec0) → V3 m ρ c b = V2 m ρ c b := fun b hb =>
  W3_of_ne m ρ c b fun e => hb (Finset.mem_image.mpr ⟨4, Finset.mem_univ _, e.symm⟩)

set_option backward.isDefEq.respectTransparency.types false in
/-- The region over the thread state: entered from every unscoped buffer at `W2`, left at `W3`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := arrays_entry (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_exit (V2 m ρ) c (V3 m ρ c) (W3_of_ne m ρ c main_v5 (by decide)) (W3_of_ne m ρ c main_v6 (by decide))
      (W3_of_ne m ρ c main_v7 (by decide)) (W3_losses m ρ c) (hrest3 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and ends with the result buffer at the fold's value and both argument arrays as launched. -/
theorem run : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c)⟩)

end Cert.KernelIdeal.Run

end
-- ==== Proof.LossAlgebra.lean ====
/-
  The contrastive loss of one row, written the kernel's way and the reference's way, and why they agree.

  Fix an item with embedding `a` (128 numbers), all the embeddings `u` (8192 rows), and for every other item `k` two
  bits: `e k`, that `k` carries the item's label, and `d k`, that `k` IS the item. Write `s k = 2 · ⟨a, u k⟩`
  for the scaled similarity and `μ k = e k ∧ ¬ d k` for "a positive".

  The reference computes `P = Σ s k · μ k` and `N = Σ s k · (1 − μ k)` and returns `− log (P / (P + N))`, the
  similarity scaled by dividing by one half and `μ` made by multiplying the two bits read as numbers. The kernel
  selects instead of multiplying, scales by the factor two, takes `T = Σ s k` and returns
  `0 − log (P / (P + (T − P)))`. Over the reals `T − P = N` because `s k − s k · μ k = s k · (1 − μ k)` term
  by term; over the extended reals that law needs every `s k` to be a real number, which holds when the embeddings'
  entries are real. This file proves the equality under that hypothesis.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-! ## The four float words the two programs spell -/

theorem word_zero : Ideal.ofBits .f32 0x00000000#32 = ((0 : ℝ) : EReal) := by
  rw [Ideal.ofBits_zero_f32]; rfl
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num

/-! ## Sums of reals among the extended reals -/

/-- A finite sum of real numbers, read in the extended reals, is the sum of the numbers read there. -/
theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- A bit is zero or one. -/
theorem bit_cases (x : BitVec 1) : x = 0#1 ∨ x = 1#1 := by
  by_cases h : x = 1#1
  · exact Or.inr h
  · exact Or.inl (eq_zero_of_ne_one h)

/-- "Item `k` is item `I`", as a 32-bit test of the item numbers (the row number plus zero against the column number). -/
def isSelf (I k : Fin 8192) : BitVec 1 :=
  IntOp.cmpi .eq (IntOp.addi (BitVec.ofNat 32 I.val) 0#32) (BitVec.ofNat 32 k.val)

/-! ## The two row losses -/

/-- The inner product of the item's embedding with item `k`'s. -/
def dotRow (a : Fin 128 → EReal) (u : Fin 8192 → Fin 128 → EReal) (k : Fin 8192) : EReal :=
  ∑ n : Fin 128, a n * u k n

/-- The kernel's loss of a row: positives selected by the bit `b k`, the negatives' sum as total minus positives. -/
def kernelLoss (a : Fin 128 → EReal) (u : Fin 8192 → Fin 128 → EReal) (b : Fin 8192 → BitVec 1) : EReal :=
  Ideal.ofBits .f32 0x00000000#32
    - Ideal.log (Ideal.div
        (∑ k : Fin 8192, Scalar.select (b k) (dotRow a u k * Ideal.ofBits .f32 0x40000000#32) (Ideal.ofBits .f32 0x00000000#32))
        ((∑ k : Fin 8192, Scalar.select (b k) (dotRow a u k * Ideal.ofBits .f32 0x40000000#32) (Ideal.ofBits .f32 0x00000000#32))
          + ((∑ k : Fin 8192, dotRow a u k * Ideal.ofBits .f32 0x40000000#32)
              - (∑ k : Fin 8192, Scalar.select (b k) (dotRow a u k * Ideal.ofBits .f32 0x40000000#32) (Ideal.ofBits .f32 0x00000000#32)))))

/-- The positives' weight the reference multiplies by: the label bit times one minus the diagonal bit. -/
def refMask (e d : Fin 8192 → BitVec 1) (k : Fin 8192) : EReal :=
  (((e k).toNat : ℝ) : EReal) * (Ideal.ofBits .f32 0x3F800000#32 - (((d k).toNat : ℝ) : EReal))

/-- The reference's loss of a row. -/
def refLoss (a : Fin 128 → EReal) (u : Fin 8192 → Fin 128 → EReal) (e d : Fin 8192 → BitVec 1) : EReal :=
  -(Ideal.log (Ideal.div
      (Ideal.ofBits .f32 0x00000000#32
        + ∑ k : Fin 8192, Ideal.div (dotRow a u k) (Ideal.ofBits .f32 0x3F000000#32) * refMask e d k)
      ((Ideal.ofBits .f32 0x00000000#32
          + ∑ k : Fin 8192, Ideal.div (dotRow a u k) (Ideal.ofBits .f32 0x3F000000#32) * refMask e d k)
        + (Ideal.ofBits .f32 0x00000000#32
          + ∑ k : Fin 8192, Ideal.div (dotRow a u k) (Ideal.ofBits .f32 0x3F000000#32)
              * (Ideal.ofBits .f32 0x3F800000#32 - refMask e d k)))))

/-- With real entries the two losses of a row are one number, when the kernel's bit is "same label and not the
    item itself". -/
theorem kernelLoss_eq_refLoss (a : Fin 128 → EReal) (u : Fin 8192 → Fin 128 → EReal) (b e d : Fin 8192 → BitVec 1)
    (ha : ∀ n, ∃ r : ℝ, a n = (r : EReal)) (hu : ∀ k n, ∃ r : ℝ, u k n = (r : EReal))
    (hb : ∀ k, b k = e k &&& (d k ^^^ 1#1)) :
    kernelLoss a u b = refLoss a u e d := by
  choose ar har using ha
  choose ur hur using hu
  -- the inner products are real
  have hD : ∀ k, dotRow a u k = ((∑ n : Fin 128, ar n * ur k n : ℝ) : EReal) := fun k => by
    unfold dotRow
    rw [coe_sum]
    exact Finset.sum_congr rfl fun n _ => by rw [har, hur, EReal.coe_mul]
  -- the positives' weight as a real number
  let μ : Fin 8192 → ℝ := fun k => if b k = 1#1 then 1 else 0
  have hmask : ∀ k, refMask e d k = ((μ k : ℝ) : EReal) := fun k => by
    unfold refMask
    rw [word_one, ← EReal.coe_sub, ← EReal.coe_mul]
    congr 1
    have hbk := hb k
    rcases bit_cases (e k) with he | he <;> rcases bit_cases (d k) with hd | hd
    · have : b k = 0#1 := by rw [hbk, he, hd]; decide
      simp [μ, this, he, hd]
    · have : b k = 0#1 := by rw [hbk, he, hd]; decide
      simp [μ, this, he, hd]
    · have : b k = 1#1 := by rw [hbk, he, hd]; decide
      simp [μ, this, he, hd]
    · have : b k = 0#1 := by rw [hbk, he, hd]; decide
      simp [μ, this, he, hd]
  -- each selected term, each scaled similarity, each reference term
  have hsel : ∀ k, Scalar.select (b k) (dotRow a u k * Ideal.ofBits .f32 0x40000000#32) (Ideal.ofBits .f32 0x00000000#32)
      = (((∑ n : Fin 128, ar n * ur k n) * 2 * μ k : ℝ) : EReal) := fun k => by
    rw [hD, word_two, word_zero, ← EReal.coe_mul]
    rcases bit_cases (b k) with h | h
    · rw [h, select_zero]; simp [μ, h]
    · rw [h, select_one]; simp [μ, h]
  have hscaled : ∀ k, dotRow a u k * Ideal.ofBits .f32 0x40000000#32 = (((∑ n : Fin 128, ar n * ur k n) * 2 : ℝ) : EReal) := fun k => by
    rw [hD, word_two, ← EReal.coe_mul]
  have hdiv : ∀ k, Ideal.div (dotRow a u k) (Ideal.ofBits .f32 0x3F000000#32) = (((∑ n : Fin 128, ar n * ur k n) * 2 : ℝ) : EReal) := fun k => by
    rw [hD, word_half, Ideal.div_coe (by norm_num : (1 / 2 : ℝ) ≠ 0), ← EReal.coe_mul]
    norm_num
  have hpos : ∀ k, Ideal.div (dotRow a u k) (Ideal.ofBits .f32 0x3F000000#32) * refMask e d k
      = (((∑ n : Fin 128, ar n * ur k n) * 2 * μ k : ℝ) : EReal) := fun k => by
    rw [hdiv, hmask, ← EReal.coe_mul]
  have hneg : ∀ k, Ideal.div (dotRow a u k) (Ideal.ofBits .f32 0x3F000000#32) * (Ideal.ofBits .f32 0x3F800000#32 - refMask e d k)
      = (((∑ n : Fin 128, ar n * ur k n) * 2 - (∑ n : Fin 128, ar n * ur k n) * 2 * μ k : ℝ) : EReal) := fun k => by
    rw [hdiv, hmask, word_one, ← EReal.coe_sub, ← EReal.coe_mul]
    congr 1; ring
  unfold kernelLoss refLoss
  simp only [hsel]
  simp only [hscaled, hpos, hneg, word_zero]
  simp only [← coe_sum, Finset.sum_sub_distrib, EReal.coe_zero, zero_add, ← EReal.coe_sub, ← EReal.coe_add]
  exact (show ∀ x : EReal, (0 : EReal) - x = -x from fun x => by rw [sub_eq_add_neg, zero_add]) _

end Cert.Loss

end
-- ==== Proof.LibDenseRows.lean ====
/-
  A layer computed from weight rows, read at an index.

  A kernel may multiply a block of `K` item rows `[K, N]` by `Q` weight rows `[Q, N]` without transposing
  the weights: the matrix unit contracts the second axis of both operands. Into a zero accumulator, over the extended
  reals, entry `(p, q)` of the product is the plain sum `Σ n, X (p, n) * W (q, n)`; with a bias row `[1, Q]`
  laid along every row of the block added, it is that sum plus `bias (0, q)`. In particular column `q` of the
  result depends on row `q` of the weights and entry `q` of the bias only.
-/
import Idealize.ShloMosaic.Lib.ValueIdx
import Idealize.ShloMosaic.Lib.ValueLayout
import Idealize.ShloMosaic.PureOps.Ideal.Laws

noncomputable section

namespace Idealize.ShloMosaic.DenseRows

open Idealize.ShloMosaic Idealize.ShloMosaic.ValueIdx

/-- The dimension numbers of `[K, N] · [Q, N]ᵀ → [K, Q]`. -/
abbrev rowDims (K N Q : Nat)
    (wf : DotDims.WF ⟨2, ![K, N]⟩ ⟨2, ![Q, N]⟩ ⟨2, ![K, Q]⟩ [1] [1] [0] [0] [] []) :
    DotDims ⟨2, ![K, N]⟩ ⟨2, ![Q, N]⟩ ⟨2, ![K, Q]⟩ where
  lhsContracting := [1]
  rhsContracting := [1]
  lhsNonContracting := [0]
  rhsNonContracting := [0]
  lhsBatch := []
  rhsBatch := []
  wf := wf

section
variable {K N Q : Nat} (wf : DotDims.WF ⟨2, ![K, N]⟩ ⟨2, ![Q, N]⟩ ⟨2, ![K, Q]⟩ [1] [1] [0] [0] [] [])

/-- The left operand's row is the result's row. -/
theorem lhs_row (j : (⟨2, ![K, Q]⟩ : Shape).Idx) (c : (rowDims K N Q wf).contr.Idx) :
    ((rowDims K N Q wf).lhsIdx j c (0 : Fin 2)).val = (j 0).val := by
  unfold DotDims.lhsIdx
  rw [dif_neg (show ¬ (0 : Fin 2) ∈ (rowDims K N Q wf).lhsBatch from List.not_mem_nil),
    dif_pos (show (0 : Fin 2) ∈ (rowDims K N Q wf).lhsNonContracting from List.mem_singleton.mpr rfl)]
  rfl

/-- The left operand's column is the contraction position. -/
theorem lhs_col (j : (⟨2, ![K, Q]⟩ : Shape).Idx) (c : (rowDims K N Q wf).contr.Idx) :
    ((rowDims K N Q wf).lhsIdx j c (1 : Fin 2)).val = (c ⟨0, Nat.one_pos⟩).val :=
  (rowDims K N Q wf).lhsIdx_val_of_single rfl j c

/-- The right operand's row is the result's column. -/
theorem rhs_row (j : (⟨2, ![K, Q]⟩ : Shape).Idx) (c : (rowDims K N Q wf).contr.Idx) :
    ((rowDims K N Q wf).rhsIdx j c (0 : Fin 2)).val = (j 1).val := by
  unfold DotDims.rhsIdx
  rw [dif_neg (show ¬ (0 : Fin 2) ∈ (rowDims K N Q wf).rhsBatch from List.not_mem_nil),
    dif_pos (show (0 : Fin 2) ∈ (rowDims K N Q wf).rhsNonContracting from List.mem_singleton.mpr rfl)]
  rfl

/-- The right operand's column is the contraction position. -/
theorem rhs_col (j : (⟨2, ![K, Q]⟩ : Shape).Idx) (c : (rowDims K N Q wf).contr.Idx) :
    ((rowDims K N Q wf).rhsIdx j c (1 : Fin 2)).val = (c ⟨0, Nat.one_pos⟩).val :=
  (rowDims K N Q wf).rhsIdx_val_of_single rfl j c

/-- Entry `(p, q)` of the product into a zero accumulator is `Σ n, X (p, n) * W (q, n)`. -/
theorem matmul_rows_zero_apply {φ₁ φ₂ : FTy} (X : FVec Ideal ⟨2, ![K, N]⟩ φ₁) (W : FVec Ideal ⟨2, ![Q, N]⟩ φ₂)
    (p : Fin K) (q : Fin Q) :
    FloatOps.matmul (rowDims K N Q wf) none X W (constant ⟨2, ![K, Q]⟩ .f32 0x00000000#32) (ix2 p q)
      = ∑ n : Fin N, X (ix2 p n) * W (ix2 q n) := by
  rw [Ideal.matmul_constant_zero_apply, ← Equiv.sum_comp (contrEquiv1 (rowDims K N Q wf) N rfl rfl).symm]
  refine Finset.sum_congr rfl fun n _ => ?_
  have hn := contrEquiv1_symm_val (rowDims K N Q wf) N rfl rfl n
  have el : (rowDims K N Q wf).lhsIdx (ix2 p q) ((contrEquiv1 (rowDims K N Q wf) N rfl rfl).symm n) = ix2 p n :=
    funext fun a => Fin.ext (by
      match a with
      | ⟨0, _⟩ => exact lhs_row wf _ _
      | ⟨1, _⟩ => exact (lhs_col wf _ _).trans hn)
  have er : (rowDims K N Q wf).rhsIdx (ix2 p q) ((contrEquiv1 (rowDims K N Q wf) N rfl rfl).symm n) = ix2 q n :=
    funext fun a => Fin.ext (by
      match a with
      | ⟨0, _⟩ => exact rhs_row wf _ _
      | ⟨1, _⟩ => exact (rhs_col wf _ _).trans hn)
  rw [el, er]

/-- Entry `(p, q)` of `X · Wᵀ + bias`, the bias one row laid along every row. -/
theorem affine_rows_apply {φ₁ φ₂ : FTy} (X : FVec Ideal ⟨2, ![K, N]⟩ φ₁) (W : FVec Ideal ⟨2, ![Q, N]⟩ φ₂)
    (bias : FVec Ideal ⟨2, ![1, Q]⟩ .f32) (hb : (⟨2, ![1, Q]⟩ : Shape).Broadcasts ⟨2, ![K, Q]⟩) (p : Fin K) (q : Fin Q) :
    addf (matmul (rowDims K N Q wf) none X W (constant ⟨2, ![K, Q]⟩ .f32 0x00000000#32))
        (broadcastTo ⟨2, ![K, Q]⟩ bias hb) (ix2 p q)
      = (∑ n : Fin N, X (ix2 p n) * W (ix2 q n)) + bias (ix2 (0 : Fin 1) q) := by
  show FloatOps.matmul (rowDims K N Q wf) none X W (constant ⟨2, ![K, Q]⟩ .f32 0x00000000#32) (ix2 p q)
      + broadcastTo ⟨2, ![K, Q]⟩ bias hb (ix2 p q) = _
  rw [matmul_rows_zero_apply wf X W p q, broadcastTo_1b_ab_apply bias hb p q]

end

end Idealize.ShloMosaic.DenseRows

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.KernelRow.lean ====
/-
  One row of the column the kernel's body stores, at the exact values.

  At grid point `i` the body holds a tile of 256 embeddings, all 8192 embeddings, the tile's labels as a column and
  all labels as a row. It forms the 256 × 8192 similarities (inner products times two), the bits "same label and
  not the same item" (the tile's row `p` is item `256 · i + p` of the whole array), sums each row of the similarities
  and of the similarities kept where the bit is set, and stores `0 − log (pos / (pos + (total − pos)))` per row.
  Read at row `p` this is `Loss.kernelLoss` of that row.
-/
import proofs.«131903_j28690381537554_2_alg».proof.Proof.Gen.KernelIdeal.Skeleton
import proofs.«131903_j28690381537554_2_alg».proof.Proof.LossAlgebra
import proofs.«131903_j28690381537554_2_alg».proof.Proof.LibDenseRows
import proofs.«131903_j28690381537554_2_alg».proof.Proof.LibColumn
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Row

open Cert.KernelIdeal Cert.KernelIdeal.Gen
open Idealize.ShloMosaic Idealize.ShloMosaic.ValueIdx

/-- The kernel's bit "item `k` is a positive of row `p` of grid point `i`": the row's label equals item `k`'s, and
    the row's number in the whole array, `256 · i + p`, is not `k`. -/
def posBit (i : grid0.Coords) (x2 : Vec Ideal S256x1 .i32) (x3 : Vec Ideal S1x8192 .i32) (p : Fin 256) (k : Fin 8192) : BitVec 1 :=
  IntOp.andi (IntOp.cmpi .eq (x2 (ix2 p (0 : Fin 1))) (x3 (ix2 (0 : Fin 1) k)))
    (IntOp.xori (IntOp.cmpi .eq (IntOp.addi (Scalar.muli (BitVec.ofNat 32 (i 0).val) 256#32) (BitVec.ofNat 32 p.val)) (BitVec.ofNat 32 k.val)) 1#1)

/-- A lane sum of a [256, 8192] array at row `p`: the sum of the row. -/
theorem laneSum_apply (src : FVec Ideal S256x8192 .f32) (hφ : FKind.Formats .f32)
    (hacc : (0x00000000#32 : BitVec 32) = 0x00000000#32) (p : Fin 256) :
    multiReduction .add [1] S256 src 0x00000000#32 reduces_S256x8192_S256 hφ hacc (ix1 p) = ∑ k : Fin 8192, src (ix2 p k) := by
  refine (Ideal.multiReduction_add_single src 0x00000000#32 reduces_S256x8192_S256 hφ hacc (ix1 p)).trans ?_
  exact Finset.sum_congr rfl fun k _ => congrArg src (funext fun a => Fin.ext (by
    match a with | ⟨0, _⟩ => rfl | ⟨1, _⟩ => rfl))

/-! ## The body's vector operations read at an index -/

theorem log_apply {s : Shape} {φ : FTy} (x : FVec Ideal s φ) (j : s.Idx) : log x j = Ideal.log (x j) := rfl
theorem andi_apply {s : Shape} {w : Nat} (x y : IVec s w) (j : s.Idx) : andi x y j = IntOp.andi (x j) (y j) := rfl
theorem xori_apply {s : Shape} {w : Nat} (x y : IVec s w) (j : s.Idx) : xori x y j = IntOp.xori (x j) (y j) := rfl
theorem addi_apply {s : Shape} {w : Nat} (x y : IVec s w) (j : s.Idx) : addi x y j = IntOp.addi (x j) (y j) := rfl
theorem cmpi_apply {s : Shape} {w : Nat} (pr : CmpIPredicate) (x y : IVec s w) (j : s.Idx) : cmpi pr x y j = IntOp.cmpi pr (x j) (y j) := rfl
theorem ix2_val0 {n0 n1 : Nat} (a : Fin n0) (b : Fin n1) : (ix2 a b 0).val = a.val := rfl
theorem ix2_val1 {n0 n1 : Nat} (a : Fin n0) (b : Fin n1) : (ix2 a b 1).val = b.val := rfl

/-- The similarity tile at `(p, k)`: the inner product of row `p` of the tile with row `k` of the whole array. -/
theorem sim_apply (X : FVec Ideal S256x128 .bf16) (W : FVec Ideal S8192x128 .bf16) (p : Fin 256) (k : Fin 8192) :
    matmul dot_S256x128_S8192x128_S256x8192_1_1_0_0_n_n none X W (constant S256x8192 .f32 0x00000000#32) (ix2 p k)
      = ∑ n : Fin 128, X (ix2 p n) * W (ix2 k n) :=
  DenseRows.matmul_rows_zero_apply Facts₀.dot_S256x128_S8192x128_S256x8192_1_1_0_0_n_n_wf X W p k

/-- The row numbers and the column numbers of the tile. -/
theorem iotaRow_eq : iota .tc S256x8192 32 [0] Facts₀.iota_S256x8192_d0_w32 = fun j => BitVec.ofNat 32 (j 0).val :=
  funext fun j => iota_single_apply .tc S256x8192 32 0 Facts₀.iota_S256x8192_d0_w32 j
theorem iotaCol_eq : iota .tc S256x8192 32 [1] Facts₀.iota_S256x8192_d1_w32 = fun j => BitVec.ofNat 32 (j 1).val :=
  funext fun j => iota_single_apply .tc S256x8192 32 1 Facts₀.iota_S256x8192_d1_w32 j

/-- Row `p` of the column the body stores at grid point `i` is the kernel's loss of that row: of row `p` of the
    tile, all rows of the whole array, and the positives' bits. -/
theorem row_apply (i : grid0.Coords) (x0 : Vec Ideal S256x128 .bf16) (x1 : Vec Ideal S8192x128 .bf16) (x2 : Vec Ideal S256x1 .i32)
    (x3 : Vec Ideal S1x8192 .i32) (p : Fin 256) :
    k0_pay1 (F := Ideal) i x0 x1 x2 x3 (ix2 p (0 : Fin 1))
      = Cert.Loss.kernelLoss (fun n => x0 (ix2 p n)) (fun k n => x1 (ix2 k n)) (posBit i x2 x3 p) := by
  unfold k0_pay1
  rw [iotaRow_eq, iotaCol_eq]
  simp only [subf_apply, addf_apply, divf_apply, log_apply, broadcast_apply]
  simp only [Column.shapeCast_a_a1_apply, shapeCast_self]
  rw [laneSum_apply, laneSum_apply]
  simp only [select_apply, mulf_apply, broadcast_apply, sim_apply, andi_apply, xori_apply,
    cmpi_apply, addi_apply, Column.broadcastTo_a1_ab_apply, broadcastTo_1b_ab_apply, constantI_apply,
    ix2_val0, ix2_val1, Ideal.ofBits_def]
  unfold Cert.Loss.kernelLoss Cert.Loss.dotRow posBit
  beta_reduce
  rfl

end Cert.KernelIdeal.Row

end
-- ==== Proof.KernelArray.lean ====
/-
  The losses' array after the region, and the program's result, at the exact values.

  Grid point `t` reads rows `256·t … 256·t + 255` of the normalised embeddings and of the label column, and the whole
  embeddings' array and label row; it writes back rows `256·t … 256·t + 255` of the losses. So what point `t` writes
  back is block `t` of ONE column (`lossCol`): row `I` of it is the kernel's loss of item `I`, computed from item
  `I`'s embedding and label, all embeddings and all labels. The 32 blocks cover the 8192 rows, so after the region the
  losses' array IS that column, and the program's result is its sum from zero divided by 8192.
-/
import proofs.«131903_j28690381537554_2_alg».proof.Proof.IdealRun
import proofs.«131903_j28690381537554_2_alg».proof.Proof.KernelRow

set_option maxRecDepth 16384

noncomputable section

namespace Cert.KernelIdeal.Whole

open Cert.KernelIdeal Cert.KernelIdeal.Gen Cert.KernelIdeal.Body Cert.KernelIdeal.Run Cert.KernelIdeal.Row
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices at grid point `t`: the row tile, the label column and the losses move with the point,
    the whole-array windows stay at block zero; the point's coordinate is its number. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

theorem point_lt (t : Fin cfg0.N) : t.val < 32 := Nat.lt_of_lt_of_eq t.isLt N_0

/-- The item that row `p` of grid point `t`'s tile is. -/
def item (t : Fin cfg0.N) (p : Fin 256) : Fin 8192 := ⟨t.val * 256 + p.val, by have := point_lt t; have := p.isLt; omega⟩

/-! ## The staged blocks, read at an entry -/

theorem read0 (c : Dev nD) (t : Fin cfg0.N) (p : Fin 256) (n : Fin 128) :
    iblk V c 0 t (ix2 p n) = V c main_v5 (ix2 (item t p) n) := by
  obtain ⟨e0, e1, -⟩ := idx_facts t
  show V c main_v5 (((cfg0.win 0).blk t).view.emb (ix2 p n)) = V c main_v5 (ix2 (item t p) n)
  refine congrArg (V c main_v5) (funext fun a => Fin.ext ?_)
  match a with
  | ⟨0, _⟩ => show win0_0.index t (0 : Fin 2) * 256 + 1 * p.val = t.val * 256 + p.val; omega
  | ⟨1, _⟩ => show win0_0.index t (1 : Fin 2) * 128 + 1 * n.val = n.val; omega

theorem read1 (c : Dev nD) (t : Fin cfg0.N) (k : Fin 8192) (n : Fin 128) :
    iblk V c 1 t (ix2 k n) = V c main_v5 (ix2 k n) := by
  obtain ⟨-, -, e0, e1, -⟩ := idx_facts t
  show V c main_v5 (((cfg0.win 1).blk t).view.emb (ix2 k n)) = V c main_v5 (ix2 k n)
  refine congrArg (V c main_v5) (funext fun a => Fin.ext ?_)
  match a with
  | ⟨0, _⟩ => show win0_1.index t (0 : Fin 2) * 8192 + 1 * k.val = k.val; omega
  | ⟨1, _⟩ => show win0_1.index t (1 : Fin 2) * 128 + 1 * n.val = n.val; omega

theorem read2 (c : Dev nD) (t : Fin cfg0.N) (p : Fin 256) :
    iblk V c 2 t (ix2 p (0 : Fin 1)) = V c main_v6 (ix2 (item t p) (0 : Fin 1)) := by
  obtain ⟨-, -, -, -, e0, e1, -⟩ := idx_facts t
  show V c main_v6 (((cfg0.win 2).blk t).view.emb (ix2 p (0 : Fin 1))) = V c main_v6 (ix2 (item t p) (0 : Fin 1))
  refine congrArg (V c main_v6) (funext fun a => Fin.ext ?_)
  match a with
  | ⟨0, _⟩ => show win0_2.index t (0 : Fin 2) * 256 + 1 * p.val = t.val * 256 + p.val; omega
  | ⟨1, _⟩ => show win0_2.index t (1 : Fin 2) * 1 + 1 * 0 = 0; omega

theorem read3 (c : Dev nD) (t : Fin cfg0.N) (k : Fin 8192) :
    iblk V c 3 t (ix2 (0 : Fin 1) k) = V c main_v7 (ix2 (0 : Fin 1) k) := by
  obtain ⟨-, -, -, -, -, -, e0, e1, -⟩ := idx_facts t
  show V c main_v7 (((cfg0.win 3).blk t).view.emb (ix2 (0 : Fin 1) k)) = V c main_v7 (ix2 (0 : Fin 1) k)
  refine congrArg (V c main_v7) (funext fun a => Fin.ext ?_)
  match a with
  | ⟨0, _⟩ => show win0_3.index t (0 : Fin 2) * 1 + 1 * 0 = 0; omega
  | ⟨1, _⟩ => show win0_3.index t (1 : Fin 2) * 8192 + 1 * k.val = k.val; omega

/-! ## The whole column -/

/-- The kernel's loss of item `I`, from the normalised embeddings `zn`, the label column `l6` and the label row `l7`. -/
def lossRow (zn : S8192x128.Idx → EReal) (l6 : S8192x1.Idx → BitVec 32) (l7 : S1x8192.Idx → BitVec 32) (I : Fin 8192) : EReal :=
  Cert.Loss.kernelLoss (fun n => zn (ix2 I n)) (fun k n => zn (ix2 k n))
    (fun k => IntOp.andi (IntOp.cmpi .eq (l6 (ix2 I (0 : Fin 1))) (l7 (ix2 (0 : Fin 1) k))) (IntOp.xori (Cert.Loss.isSelf I k) 1#1))

/-- The losses' column the region leaves. -/
def lossCol (c : Dev nD) : S8192x1.Idx → EReal := fun j =>
  lossRow (V c main_v5) (V c main_v6) (V c main_v7) ⟨(j 0).val, (j 0).isLt⟩

/-- The tile's row number plus the point's base is the item's number, as 32-bit words. -/
theorem word_item (t : Fin cfg0.N) (p : Fin 256) :
    IntOp.addi (Scalar.muli (BitVec.ofNat 32 (grid0.coords t 0).val) 256#32) (BitVec.ofNat 32 p.val)
      = IntOp.addi (BitVec.ofNat 32 (item t p).val) 0#32 := by
  obtain ⟨-, -, -, -, -, -, -, -, -, -, eg⟩ := idx_facts t
  rw [eg]
  have ht := point_lt t
  have hp := p.isLt
  apply BitVec.eq_of_toNat_eq
  show (BitVec.ofNat 32 t.val * 256#32 + BitVec.ofNat 32 p.val).toNat = (BitVec.ofNat 32 (t.val * 256 + p.val) + 0#32).toNat
  simp only [BitVec.toNat_add, BitVec.toNat_mul, BitVec.toNat_ofNat]
  omega

/-- WHAT POINT `t` WRITES BACK is block `t` of the column. -/
theorem flushed_eq (c : Dev nD) (t : Fin cfg0.N) :
    (dat V c).flushed 4 t = ((cfg0.win 4).blk t).view.read (Elt Ideal) (lossCol V c) := by
  show (cfg0.win 4).cut (grid0.coords t) ((dat V c).after 4 t) = _
  rw [after4]
  unfold lossBlock
  rw [View.canon_unit_zero hz]
  simp only [View.ld_unit_zero (S := S256x128) hz, View.ld_unit_zero (S := S8192x128) hz, View.ld_unit_zero (S := S256x1) hz,
    View.ld_unit_zero (S := S1x8192) hz]
  funext y
  obtain ⟨p, z, rfl⟩ : ∃ (p : Fin 256) (z : Fin 1), y = ix2 p z := ⟨y 0, y 1, eq_ix2 y⟩
  obtain rfl : z = 0 := Subsingleton.elim _ _
  obtain ⟨-, -, -, -, -, -, -, -, e40, e41, -⟩ := idx_facts t
  refine (row_apply (grid0.coords t) (iblk V c 0 t) (iblk V c 1 t) (iblk V c 2 t) (iblk V c 3 t) p).trans ?_
  show _ = lossCol V c (((cfg0.win 4).blk t).view.emb (ix2 p (0 : Fin 1)))
  have hemb : ((cfg0.win 4).blk t).view.emb (ix2 p (0 : Fin 1)) = ix2 (item t p) (0 : Fin 1) := funext fun a => Fin.ext (by
    match a with
    | ⟨0, _⟩ => show win0_4.index t (0 : Fin 2) * 256 + 1 * p.val = t.val * 256 + p.val; omega
    | ⟨1, _⟩ => show win0_4.index t (1 : Fin 2) * 1 + 1 * 0 = 0; omega)
  rw [hemb]
  have ha : (fun n : Fin 128 => iblk V c 0 t (ix2 p n)) = fun n => V c main_v5 (ix2 (item t p) n) :=
    funext fun n => read0 V c t p n
  have hu : (fun (k : Fin 8192) (n : Fin 128) => iblk V c 1 t (ix2 k n)) = fun k n => V c main_v5 (ix2 k n) :=
    funext fun k => funext fun n => read1 V c t k n
  have hbit : posBit (grid0.coords t) (iblk V c 2 t) (iblk V c 3 t) p
      = fun k => IntOp.andi (IntOp.cmpi .eq (V c main_v6 (ix2 (item t p) (0 : Fin 1))) (V c main_v7 (ix2 (0 : Fin 1) k)))
          (IntOp.xori (Cert.Loss.isSelf (item t p) k) 1#1) := funext fun k => by
    unfold posBit Cert.Loss.isSelf
    rw [read2, read3, word_item]
  rw [ha, hu, hbit]
  rfl

/-- An index of the losses' array is in point `t`'s block iff each coordinate is in the block's range. -/
theorem mem_blk (t : Fin cfg0.N) (i : S8192x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v8).slice (win0_4.rect t)).set ↔ _
  rw [View.set_slice_whole, Rect.mem_set_unit]
  exact Iff.rfl

/-- Every row of the losses is in some point's block: row `r` in block `r / 256`. -/
theorem cover (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 32 := N_0
  have hlt : (i 0).val / 256 < cfg0.N := by rw [hN]; omega
  refine ⟨⟨(i 0).val / 256, hlt⟩, flush0_4 _, ?_⟩
  obtain ⟨-, -, -, -, -, -, -, -, e40, e41, -⟩ := idx_facts ⟨(i 0).val / 256, hlt⟩
  rw [mem_blk]
  intro a
  match a with
  | ⟨0, _⟩ =>
    show win0_4.index ⟨(i 0).val / 256, hlt⟩ (0 : Fin 2) * 256 ≤ (i 0).val ∧ (i 0).val < win0_4.index ⟨(i 0).val / 256, hlt⟩ (0 : Fin 2) * 256 + 256
    rw [e40]; show (i 0).val / 256 * 256 ≤ (i 0).val ∧ (i 0).val < (i 0).val / 256 * 256 + 256; omega
  | ⟨1, _⟩ =>
    show win0_4.index ⟨(i 0).val / 256, hlt⟩ (1 : Fin 2) * 1 ≤ (i 1).val ∧ (i 1).val < win0_4.index ⟨(i 0).val / 256, hlt⟩ (1 : Fin 2) * 1 + 1
    rw [e41]; omega

/-- THE LOSSES' ARRAY after the region is the column. -/
theorem losses_eq (c : Dev nD) : (dat V c).arrAt 4 cfg0.N = lossCol V c :=
  (dat V c).arrAt_eq_of_cover 4 (lossCol V c) (fun t _ => flushed_eq V c t) (fun i => cover i)

variable (m : (ℓ : Loc nD τ sig) → Buf (Elt Ideal) ℓ) (ρ : Dev nD → PrngReg)

/-- The rows of the losses' column are the items. -/
def colEquiv : S8192x1.Idx ≃ Fin 8192 where
  toFun j := ⟨(j 0).val, (j 0).isLt⟩
  invFun I := ix2 I (0 : Fin 1)
  left_inv j := funext fun a => Fin.ext (by
    match a with
    | ⟨0, _⟩ => rfl
    | ⟨1, _⟩ => have h : (j 1).val < 1 := (j 1).isLt; show 0 = (j 1).val; omega)
  right_inv _ := rfl

/-- THE RESULT: the kernel's losses of all items summed from zero, over 8192. -/
theorem result_eq (c : Dev nD) :
    W4 m ρ c (Proc.devRef .tc main_v10)
      = fun _ => Ideal.div (Ideal.ofBits .f32 0x00000000#32
            + ∑ I : Fin 8192, lossRow (V2 m ρ c main_v5) (V2 m ρ c main_v6) (V2 m ρ c main_v7) I)
          (Ideal.ofBits .f32 0x46000000#32) := by
  show StableHlo.after hostOps1 (W3 m ρ c) (Proc.devRef .tc main_v10) = _
  after_results
  rw [W3_losses, losses_eq]
  funext i
  simp only [Host.divf, Host.reduceAdd, Ideal.hostReduceAdd_def, Ideal.hostDivf_def]
  rw [Ideal.hostReduceAdd_total reducesTo_S8192x1_S_d0_1 (fun b => b.elim0) (lossCol (V2 m ρ) c) _ i]
  show Ideal.div (Ideal.ofBits .f32 0x00000000#32 + ∑ j : S8192x1.Idx, lossCol (V2 m ρ) c j) (Ideal.ofBits .f32 0x46000000#32) = _
  refine congrArg (fun s : EReal => Ideal.div (Ideal.ofBits .f32 0x00000000#32 + s) (Ideal.ofBits .f32 0x46000000#32)) ?_
  rw [← Equiv.sum_comp colEquiv.symm]
  exact Finset.sum_congr rfl fun I _ => rfl

end Cert.KernelIdeal.Whole

end
-- ==== Proof.RefRows.lean ====
/-
  The reference program's result, row by row.

  Its row `I` of the loss vector is `Loss.refLoss` of the normalised embedding of item `I`, all the normalised
  embeddings, the bits "item `k` has item `I`'s label" and the bits "`k` is `I`"; its result is the sum of the rows
  from zero, divided by 8192. The normalised embeddings are the reference's own fourth stage (`val_main_v4`): each
  entry of the input divided by its row's norm clamped from below.
-/
import proofs.«131903_j28690381537554_2_alg».proof.Proof.Gen.ReferenceIdeal.Read
import proofs.«131903_j28690381537554_2_alg».proof.Proof.LossAlgebra

noncomputable section

namespace Cert.ReferenceIdeal.Rows

open Cert.ReferenceIdeal Cert.ReferenceIdeal.Gen Cert.ReferenceIdeal.Read
open Idealize.ShloMosaic Idealize.ShloMosaic.ValueIdx Idealize.ShloMosaic.TcCoe Idealize.SL.Sem

/-- The normalised embeddings, as rows. -/
def unit (x0 : (⟨S8192x128, .f32⟩ : BufTy).Contents (Elt Ideal)) (k : Fin 8192) (n : Fin 128) : EReal :=
  val_main_v4 (F := Ideal) x0 (ix2 k n)

/-- "Item `k` carries item `I`'s label." -/
def sameLabel (x1 : (⟨S8192, .i32⟩ : BufTy).Contents (Elt Ideal)) (I k : Fin 8192) : BitVec 1 :=
  IntOp.cmpi .eq (x1 (ix1 I)) (x1 (ix1 k))

/-- A bit read as a number, at the exact values: its value as a natural number. -/
theorem uitofp_bit (b : BitVec 1) : FloatOps.uitofp (F := Ideal) .f32 b = (((b.toNat : ℕ) : ℝ) : EReal) := rfl
theorem ix2_val0 {n0 n1 : Nat} (a : Fin n0) (b : Fin n1) : (ix2 a b 0).val = a.val := rfl
theorem ix2_val1 {n0 n1 : Nat} (a : Fin n0) (b : Fin n1) : (ix2 a b 1).val = b.val := rfl

set_option maxRecDepth 100000 in
/-- Row `I` of the reference's loss vector. -/
theorem row_eq (x0 : (⟨S8192x128, .f32⟩ : BufTy).Contents (Elt Ideal)) (x1 : (⟨S8192, .i32⟩ : BufTy).Contents (Elt Ideal)) (I : Fin 8192) :
    val_main_v32 (F := Ideal) x0 x1 (ix1 I)
      = Cert.Loss.refLoss (unit x0 I) (unit x0) (sameLabel x1 I) (Cert.Loss.isSelf I) := by
  have i24 : ∀ k : Fin 8192, idx_main_v24 (ix1 I) k = ix2 I k := fun k => funext fun a => Fin.ext (by
    match a with | ⟨0, _⟩ => rfl | ⟨1, _⟩ => rfl)
  have i28 : ∀ k : Fin 8192, idx_main_v28 (ix1 I) k = ix2 I k := fun k => funext fun a => Fin.ext (by
    match a with | ⟨0, _⟩ => rfl | ⟨1, _⟩ => rfl)
  have il : ∀ (k : Fin 8192) (n : Fin 128), lidx_main_v5 (ix2 I k) n = ix2 I n := fun k n => funext fun a => Fin.ext (by
    match a with | ⟨0, _⟩ => rfl | ⟨1, _⟩ => rfl)
  have ir : ∀ (k : Fin 8192) (n : Fin 128), ridx_main_v5 (ix2 I k) n = ix2 k n := fun k n => funext fun a => Fin.ext (by
    match a with | ⟨0, _⟩ => rfl | ⟨1, _⟩ => rfl)
  have i10 : ∀ k : Fin 8192, idx_main_v8 (idx_main_v10 (ix2 I k)) = ix1 I := fun k => funext fun a => Fin.ext (by
    match a with | ⟨0, _⟩ => rfl)
  have i11 : ∀ k : Fin 8192, idx_main_v9 (idx_main_v11 (ix2 I k)) = ix1 k := fun k => funext fun a => Fin.ext (by
    match a with | ⟨0, _⟩ => rfl)
  rw [val_main_v32_apply, val_main_v31_apply, val_main_v30_apply, val_main_v29_apply, val_main_v24_apply, val_main_v28_apply]
  unfold Cert.Loss.refLoss Cert.Loss.refMask Cert.Loss.dotRow unit sameLabel Cert.Loss.isSelf
  simp only [i24, i28, val_main_v23_apply, val_main_v27_apply, val_main_v7_apply, val_main_v5_apply, il, ir, val_main_v6_apply,
    val_main_cst_0_apply, val_main_v22_apply, val_main_v26_apply, val_main_v25_apply, val_main_cst_3_apply, val_main_v13_apply,
    val_main_v12_apply, val_main_v10_apply, val_main_v8_apply, val_main_v11_apply, val_main_v9_apply, i10, i11, val_main_v21_apply,
    val_main_v20_apply, val_main_cst_1_apply, val_main_v19_apply, val_main_v18_apply, val_main_v17_apply, val_main_v14_apply,
    val_main_v15_apply, val_main_v16_apply, val_main_c_apply, val_main_cst_2_apply, val_main_cst_4_apply,
    Ideal.hostNegf_def, Ideal.negf_def, Ideal.hostUnary_log_def, Ideal.hostDivf_def, Ideal.addf_def, Ideal.mulf_def, Ideal.subf_def,
    Ideal.ofBits_def, uitofp_bit, ix2_val0, ix2_val1]

/-- The loss vector's indices are the items. -/
def itemEquiv : S8192.Idx ≃ Fin 8192 where
  toFun j := j 0
  invFun k := ix1 k
  left_inv j := (eq_ix1 j).symm
  right_inv _ := rfl

set_option maxRecDepth 100000 in
/-- The reference's result: the rows summed from zero, over 8192. -/
theorem result_eq (x0 : (⟨S8192x128, .f32⟩ : BufTy).Contents (Elt Ideal)) (x1 : (⟨S8192, .i32⟩ : BufTy).Contents (Elt Ideal)) (i : S_.Idx) :
    val_main_v34 (F := Ideal) x0 x1 i
      = Ideal.div (Ideal.ofBits .f32 0x00000000#32
            + ∑ I : Fin 8192, Cert.Loss.refLoss (unit x0 I) (unit x0) (sameLabel x1 I) (Cert.Loss.isSelf I))
          (Ideal.ofBits .f32 0x46000000#32) := by
  rw [val_main_v34_apply, val_main_v33_apply, val_main_cst_5_apply, val_main_cst_6_apply]
  simp only [Ideal.hostDivf_def, Ideal.ofBits_def]
  refine congrArg (fun s : EReal => Ideal.div (Ideal.ofBits .f32 0x00000000#32 + s) (Ideal.ofBits .f32 0x46000000#32)) ?_
  rw [← Equiv.sum_comp itemEquiv.symm]
  exact Finset.sum_congr rfl fun I _ => row_eq x0 x1 I

end Cert.ReferenceIdeal.Rows

end
-- ==== Proof.RealRows.lean ====
/-
  Where the real numbers come from.

  The precondition says every entry `x` of the embeddings satisfies `|x| < +∞` as an extended real, so every entry is a
  real number. The normalised entry is `x / max (sqrt (0 + Σ x²)) ε` with `ε` the float `9.99999993e-9`, a positive
  real: the sum of squares is a non-negative real, its square root a real, the maximum a real at least `ε`, hence
  not zero, and the quotient a real.
-/
import proofs.«131903_j28690381537554_2_alg».proof.Proof.RefRows
import proofs.«131903_j28690381537554_2_alg».proof.Pre_finite_inputs
import proofs.«131903_j28690381537554_2_alg».proof.Proof.Gen.Pre_finite_inputs
import Idealize.ShloMosaic.Lib.ReduceAll

noncomputable section

namespace Cert.RealRows

open Cert.ReferenceIdeal Cert.ReferenceIdeal.Gen Cert.ReferenceIdeal.Read Cert.ReferenceIdeal.Rows
open Idealize.ShloMosaic Idealize.ShloMosaic.ValueIdx

/-- The clamp's word is a positive real. -/
theorem word_eps : ∃ e : ℝ, 0 < e ∧ Ideal.ofBits .f32 0x322BCC77#32 = ((e : ℝ) : EReal) := by
  refine ⟨((2 ^ 23 + 2870391 : ℕ) : ℝ) * (2 : ℝ) ^ ((100 : ℤ) - 127 - 23), by positivity, ?_⟩
  simp [Ideal.ofBits, Ideal.ieee, -EReal.coe_mul]

theorem coe_max (a b : ℝ) : max (a : EReal) (b : EReal) = ((max a b : ℝ) : EReal) :=
  (EReal.coe_strictMono.monotone.map_max).symm

/-- With real entries every normalised entry is real. -/
theorem unit_real (x0 : (⟨S8192x128, .f32⟩ : BufTy).Contents (Elt Ideal)) (hx : ∀ j, ∃ r : ℝ, x0 j = (r : EReal))
    (k : Fin 8192) (n : Fin 128) : ∃ r : ℝ, unit x0 k n = (r : EReal) := by
  choose xr hxr using hx
  obtain ⟨e, he, hw⟩ := word_eps
  have hsum : ∀ j : S8192.Idx, val_main_call0_v1 (F := Ideal) x0 j
      = ((0 + ∑ q : Fin 128, xr (idx_main_call0_v1 j q) * xr (idx_main_call0_v1 j q) : ℝ) : EReal) := fun j => by
    rw [val_main_call0_v1_apply, val_main_call0_cst_apply]
    simp only [val_main_call0_v0_apply, Ideal.mulf_def, Ideal.ofBits_def, hxr, Cert.Loss.word_zero, ← EReal.coe_mul,
      ← Cert.Loss.coe_sum, ← EReal.coe_add]
  have hnn : ∀ j : S8192.Idx, (0 : ℝ) ≤ 0 + ∑ q : Fin 128, xr (idx_main_call0_v1 j q) * xr (idx_main_call0_v1 j q) := fun j =>
    add_nonneg le_rfl (Finset.sum_nonneg fun q _ => mul_self_nonneg _)
  have hden : ∃ d : ℝ, d ≠ 0 ∧ val_main_v3 (F := Ideal) x0 (ix2 k n) = ((d : ℝ) : EReal) := by
    refine ⟨max (Real.sqrt (0 + ∑ q : Fin 128, xr (idx_main_call0_v1 (idx_main_call0_v2 (idx_main_v3 (ix2 k n))) q)
        * xr (idx_main_call0_v1 (idx_main_call0_v2 (idx_main_v3 (ix2 k n))) q))) e, ne_of_gt (lt_of_lt_of_le he (le_max_right _ _)), ?_⟩
    rw [val_main_v3_apply, val_main_v2_apply, val_main_v0_apply, val_main_call0_v2_apply, hsum, val_main_v1_apply, val_main_cst_apply]
    simp only [Ideal.maximumf_def, Ideal.hostUnary_sqrt_def, Ideal.ofBits_def, hw]
    rw [Ideal.sqrt_coe, if_neg (not_lt.mpr (hnn _)), coe_max]
  obtain ⟨d, hd, hdv⟩ := hden
  unfold unit
  rw [val_main_v4_apply, hdv, hxr]
  simp only [Ideal.hostDivf_def]
  rw [Ideal.div_coe hd, ← EReal.coe_mul]
  exact ⟨_, rfl⟩

/-- The precondition makes every entry of the embeddings a real number. -/
theorem real_of_pre (x0 : FVec Ideal Cert.Pre_finite_inputs.S8192x128 .f32) (x1 : IVec Cert.Pre_finite_inputs.S8192 32)
    (h : Cert.Pre_finite_inputs.fn (F := Ideal) x0 x1 = fun _ => 1#1) (j : Cert.Pre_finite_inputs.S8192x128.Idx) :
    ∃ r : ℝ, x0 j = (r : EReal) := by
  have h0 := congrFun h ix0
  dsimp only [Cert.Pre_finite_inputs.fn] at h0
  haveI : Subsingleton (Cert.Pre_finite_inputs.S_.Idx) := ⟨fun a b => funext fun d => d.elim0⟩
  have hj := Host.reduce_andi_all _ _ _ _ _ h0 j
  have htop : Ideal.ofBits .f32 0x7F800000#32 = ⊤ := by simp [Ideal.ofBits, Ideal.ieee]
  have hc : Ideal.cmp .olt (max (x0 j) (-(x0 j))) (Ideal.ofBits .f32 0x7F800000#32) = 1#1 := hj
  rw [htop] at hc
  unfold Ideal.cmp at hc
  have hlt : max (x0 j) (-(x0 j)) < ⊤ := by
    by_contra hn
    simp [hn] at hc
  generalize x0 j = x at hlt
  induction x using EReal.rec with
  | bot => simp at hlt
  | coe r => exact ⟨r, rfl⟩
  | top => simp at hlt

end Cert.RealRows

end
-- ==== Proof.Bridge.lean ====
/-
  The kernel's result is the reference's result, at the exact values, when the embeddings' entries are real.

  At the region's entry the embeddings' array holds the reference's own normalisation of the input (the two programs
  spell the same host lines), the label column holds label `I` at row `I` and the label row holds label `k` at
  column `k`. So the kernel's loss of item `I` is `Loss.kernelLoss` of exactly the rows and bits the reference's row
  is `Loss.refLoss` of, and the two agree (`Loss.kernelLoss_eq_refLoss`: the entries are real). Both programs then
  sum the 8192 rows from zero and divide by 8192.
-/
import proofs.«131903_j28690381537554_2_alg».proof.Proof.KernelArray
import proofs.«131903_j28690381537554_2_alg».proof.Proof.RealRows
import proofs.«131903_j28690381537554_2_alg».proof.Proof.LibColumn
import Idealize.ShloMosaic.Lib.ValueLayout

set_option maxRecDepth 16384

noncomputable section

namespace Cert.KernelIdeal.Bridge

open Cert.KernelIdeal Cert.KernelIdeal.Gen Cert.KernelIdeal.Body Cert.KernelIdeal.Run Cert.KernelIdeal.Whole
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The embeddings' array at the region's entry is the reference's normalisation of the input. -/
theorem normalised_eq (c : Dev nD) :
    (V2 m ρ c main_v5 : S8192x128.Idx → EReal)
      = fun j => Cert.ReferenceIdeal.Read.val_main_v4 (F := Ideal) (m ((c : Thread nD τ).loc main_arg0)) j := by
  show StableHlo.after hostOps0_1 (StableHlo.after hostOps0 (W0 m ρ c)) (Proc.devRef .tc main_v5) = _
  after_results
  rfl

/-- The label column holds label `I` at row `I`. -/
theorem labelCol_eq (c : Dev nD) (I : Fin 8192) :
    V2 m ρ c main_v6 (ix2 I (0 : Fin 1)) = m ((c : Thread nD τ).loc main_arg1) (ix1 I) := by
  have e : (V2 m ρ c main_v6 : S8192x1.Idx → BitVec 32)
      = shapeCast S8192x1 (m ((c : Thread nD τ).loc main_arg1)) Facts₀.shapeCasts_S8192_S8192x1 := by
    show StableHlo.after hostOps0_1 (StableHlo.after hostOps0 (W0 m ρ c)) (Proc.devRef .tc main_v6) = _
    after_results
    rfl
  exact (congrFun e (ix2 I (0 : Fin 1))).trans (Column.shapeCast_a_a1_apply _ _ I 0)

/-- The label row holds label `k` at column `k`. -/
theorem labelRow_eq (c : Dev nD) (k : Fin 8192) :
    V2 m ρ c main_v7 (ix2 (0 : Fin 1) k) = m ((c : Thread nD τ).loc main_arg1) (ix1 k) := by
  have e : (V2 m ρ c main_v7 : S1x8192.Idx → BitVec 32)
      = shapeCast S1x8192 (m ((c : Thread nD τ).loc main_arg1)) Facts₀.shapeCasts_S8192_S1x8192 := by
    show StableHlo.after hostOps0_1 (StableHlo.after hostOps0 (W0 m ρ c)) (Proc.devRef .tc main_v7) = _
    after_results
    rfl
  exact (congrFun e (ix2 (0 : Fin 1) k)).trans (shapeCast_a_1a_apply _ _ 0 k)

/-- The kernel's loss of item `I` is the reference's row `I`. -/
theorem lossRow_eq (c : Dev nD) (hfin : ∀ j, ∃ r : ℝ, m ((c : Thread nD τ).loc main_arg0) j = (r : EReal)) (I : Fin 8192) :
    lossRow (V2 m ρ c main_v5) (V2 m ρ c main_v6) (V2 m ρ c main_v7) I
      = Cert.Loss.refLoss (Cert.ReferenceIdeal.Rows.unit (m ((c : Thread nD τ).loc main_arg0)) I)
          (Cert.ReferenceIdeal.Rows.unit (m ((c : Thread nD τ).loc main_arg0)))
          (Cert.ReferenceIdeal.Rows.sameLabel (m ((c : Thread nD τ).loc main_arg1)) I) (Cert.Loss.isSelf I) := by
  have h5 : ∀ j, V2 m ρ c main_v5 j = Cert.ReferenceIdeal.Read.val_main_v4 (F := Ideal) (m ((c : Thread nD τ).loc main_arg0)) j :=
    fun j => congrFun (normalised_eq m ρ c) j
  have ha : (fun n : Fin 128 => V2 m ρ c main_v5 (ix2 I n)) = Cert.ReferenceIdeal.Rows.unit (m ((c : Thread nD τ).loc main_arg0)) I :=
    funext fun n => h5 _
  have hu : (fun (k : Fin 8192) (n : Fin 128) => V2 m ρ c main_v5 (ix2 k n)) = Cert.ReferenceIdeal.Rows.unit (m ((c : Thread nD τ).loc main_arg0)) :=
    funext fun k => funext fun n => h5 _
  have hb : (fun k : Fin 8192 => IntOp.andi (IntOp.cmpi .eq (V2 m ρ c main_v6 (ix2 I (0 : Fin 1))) (V2 m ρ c main_v7 (ix2 (0 : Fin 1) k)))
        (IntOp.xori (Cert.Loss.isSelf I k) 1#1))
      = fun k => IntOp.andi (Cert.ReferenceIdeal.Rows.sameLabel (m ((c : Thread nD τ).loc main_arg1)) I k) (IntOp.xori (Cert.Loss.isSelf I k) 1#1) :=
    funext fun k => by rw [labelCol_eq, labelRow_eq]; rfl
  unfold lossRow
  rw [ha, hu, hb]
  exact Cert.Loss.kernelLoss_eq_refLoss _ _ _ _ _ (fun n => Cert.RealRows.unit_real _ hfin I n)
    (fun k n => Cert.RealRows.unit_real _ hfin k n) (fun k => rfl)

/-- THE RESULT buffer holds the reference's last stage of the same arguments. -/
theorem result_is_reference (c : Dev nD) (hfin : ∀ j, ∃ r : ℝ, m ((c : Thread nD τ).loc main_arg0) j = (r : EReal)) :
    W4 m ρ c (Proc.devRef .tc main_v10)
      = Cert.ReferenceIdeal.Read.val_main_v34 (F := Ideal) (m ((c : Thread nD τ).loc main_arg0)) (m ((c : Thread nD τ).loc main_arg1)) := by
  rw [result_eq]
  funext i
  rw [Cert.ReferenceIdeal.Rows.result_eq]
  refine congrArg (fun s : EReal => Ideal.div (Ideal.ofBits .f32 0x00000000#32 + s) (Ideal.ofBits .f32 0x46000000#32)) ?_
  exact Finset.sum_congr rfl fun I _ => lossRow_eq m ρ c hfin I

end Cert.KernelIdeal.Bridge

end
-- ==== Proof.lean ====
/-
  An NT-Xent style contrastive loss: the Pallas kernel against its jnp reference, at the exact values.

  Both programs normalise the 8192 embeddings (each row divided by its norm clamped from below) and, for each item,
  compare the summed similarity to the items sharing its label with the summed similarity to all others,
  `− log (P / (P + N))`, averaged over the items. The reference forms the 8192 × 8192 similarities on the host and
  gets `N` by summing the similarities weighted by one minus the positives' mask. The kernel works on 32 tiles of
  256 rows, keeps each 256 × 8192 tile of similarities on chip, and gets `N` as the row's total minus `P`; the scale
  `1 / 0.5` is the factor `2`; its matrix unit is fed the normalised embeddings in a narrower format, which at the
  exact values changes nothing.

  * The three frames: each program runs to its end, faults nowhere and leaves its two arguments as launched. For the
    kernel this is the run of @main as four stretches — two host stretches, the region, a host stretch — with the
    kernel's body run symbolically at a generic grid point (`Run.run`, at the word level and at the exact values
    alike). One array reaches the kernel through two windows, so its share is dealt in halves at the region's entry
    and put together at the exit. For the reference it is the run of its host lines.
  * `preserves`: the idealized kernel is the kernel's own text read at the exact values; there is nothing to state.
  * `algebraic`: the kernel's result buffer holds `(0 + Σ_I kernelLoss I) / 8192` (what each grid point writes back is
    a block of one column, and the 32 blocks cover it), the reference's holds `(0 + Σ_I refLoss I) / 8192`, and row
    by row the two losses are one number because every similarity is a REAL number: `total − P = N` needs that, and
    it follows from the precondition (finite inputs) through the square root, the clamp and the division.
-/
import proofs.«131903_j28690381537554_2_alg».proof.Defs
import proofs.«131903_j28690381537554_2_alg».proof.Proof.Gen.Kernel
import proofs.«131903_j28690381537554_2_alg».proof.Proof.Gen.KernelIdeal
import proofs.«131903_j28690381537554_2_alg».proof.Proof.Gen.ReferenceIdeal
import proofs.«131903_j28690381537554_2_alg».proof.Proof.Gen.Pre_finite_inputs
import proofs.«131903_j28690381537554_2_alg».proof.Proof.Gen.ReferenceIdeal.Run
import proofs.«131903_j28690381537554_2_alg».proof.Proof.Gen.ReferenceIdeal.Read
import proofs.«131903_j28690381537554_2_alg».proof.Proof.BitsRun
import proofs.«131903_j28690381537554_2_alg».proof.Proof.IdealRun
import proofs.«131903_j28690381537554_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ =>
  (θ_run Cert.Kernel.defs _ _).mono (fun _ h c => ⟨(h c).2.1, (h c).2.2⟩) (Cert.Kernel.Run.run (F := Bits) m ρ)

/-- So does the kernel read at the exact values. -/
theorem frame_kernelIdeal : Cert.frame_KernelIdeal := fun m ρ _ =>
  (θ_run Cert.KernelIdeal.defs _ _).mono (fun _ h c => ⟨(h c).2.1, (h c).2.2⟩) (Cert.KernelIdeal.Run.run (F := Ideal) m ρ)

/-- And the reference: its host lines' run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments the two programs end with one result: the kernel's buffer holds the
    reference's last stage of the same arguments, the embeddings' entries being real by the precondition. -/
theorem algebraic : Cert.algebraic_KernelIdeal_ReferenceIdeal := by
  intro m ρ m' ρ' hpre hagree
  refine ⟨fun c => Cert.KernelIdeal.Run.W4 m ρ c (Proc.devRef .tc Cert.KernelIdeal.main_v10),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2]
  exact (Cert.KernelIdeal.Bridge.result_is_reference m ρ c (fun j => Cert.RealRows.real_of_pre _ _ (hpre c) j)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
